-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S2000x64 : Shape := ⟨2, ![2000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 66
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x64_S64x64_S2000x64_1_0_0_1_n_n_wf : DotDims.WF S2000x64 S64x64 S2000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S50000x64, .f32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Layer.lean ====
/-
  One graph-convolution layer as the programs spell it, on arrays of extended reals.

  The edge list `e` is a 2 × 800000 array of node numbers: row 0 the sources, row 1 the targets. A self loop is
  added at every node (`sources`, `targets`: the row followed by 0 … 49999). The degree of a node counts the edges
  that end at it; `invSqrtDegree` is `1/sqrt(max(degree, 1))` where the degree is positive and 0 elsewhere. Each
  edge carries the weight `invSqrtDegree(source) · invSqrtDegree(target)`; `aggregate xw e` adds, into row
  `target`, the weight times row `source` of the transformed features `xw` (a negative node number is first
  shifted up by 50000, as the programs do before every gather). `biasRelu` adds the bias row to every row and takes
  the positive part; `layer` is the three steps from the features `x`, the weights `w`, the edges and the bias.

  Everything here is the reference program's own term, cut at its named intermediate values: no operation is
  opened, so nothing is assumed about node numbers being in range or entries being finite.
-/
import proofs.«180685_j12317966205308_1_alg».proof.ReferenceIdeal
import Idealize.ShloMosaic.PureOps.Ideal

noncomputable section

namespace Cert.Layer

open Cert.ReferenceIdeal Idealize.ShloMosaic
open Cert.ReferenceIdeal.Facts₀ Cert.ReferenceIdeal.Facts

variable [Cert.ReferenceIdeal.Facts]

/-- The edge list, the list of edge ends with the self loops added, a value per node, the node features, the
    weights, the bias. -/
abbrev Edges := (⟨S2x800000, .i32⟩ : BufTy).Contents (Elt Ideal)
abbrev Ends := (⟨S850000, .i32⟩ : BufTy).Contents (Elt Ideal)
abbrev PerNode := (⟨S50000, .f32⟩ : BufTy).Contents (Elt Ideal)
abbrev Features := (⟨S50000x64, .f32⟩ : BufTy).Contents (Elt Ideal)
abbrev Weights := (⟨S64x64, .f32⟩ : BufTy).Contents (Elt Ideal)
abbrev Bias := (⟨S64, .f32⟩ : BufTy).Contents (Elt Ideal)

/-- The edges' targets, then every node (its self loop's target). -/
def targets (e : Edges) : Ends :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The edges' sources, then every node (its self loop's source). -/
def sources (e : Edges) : Ends :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- A negative node number shifted up by the number of nodes. -/
def wrapped (v : Ends) : Ends :=
  select (cmpi .slt v (broadcastInDim S850000 ![] bcast_S_S850000 (constantI S_ 32 0#32))) (addi v (broadcastInDim S850000 ![] bcast_S_S850000 (constantI S_ 32 50000#32))) v

/-- Ones added at the given ends: how many of them each node is. -/
def degreeOf (dst : Ends) : PerNode :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 dst) (broadcastInDim S850000 ![] bcast_S_S850000 (constant (F := Ideal) S_ .f32 0x3F800000#32))

/-- How many edges (self loop included) end at each node. -/
def degree (e : Edges) : PerNode := degreeOf (targets e)

/-- The positive entries of a count, as a mask. -/
def positiveMask (deg : PerNode) : (⟨S50000, .i1⟩ : BufTy).Contents (Elt Ideal) :=
  cmpf (F := Ideal) .ogt deg (broadcastInDim S50000 ![] bcast_S_S50000 (constant (F := Ideal) S_ .f32 0x00000000#32))

/-- `1/sqrt(max(count, 1))`. -/
def invSqrtAtLeastOne (deg : PerNode) : PerNode :=
  Host.rsqrt (F := Ideal) (maximumf deg (broadcastInDim S50000 ![] bcast_S_S50000 (constant (F := Ideal) S_ .f32 0x3F800000#32)))

/-- The second value where the mask holds, the given scalar elsewhere. -/
def maskedOr (mask : (⟨S50000, .i1⟩ : BufTy).Contents (Elt Ideal)) (v : PerNode) (z : (⟨S_, .f32⟩ : BufTy).Contents (Elt Ideal)) : PerNode :=
  select mask v (broadcastInDim S50000 ![] bcast_S_S50000 (id z))

/-- `1/sqrt(max(degree, 1))` at a node of positive degree, 0 elsewhere. -/
def invSqrtDegree (e : Edges) : PerNode :=
  maskedOr (positiveMask (degree e)) (invSqrtAtLeastOne (degree e)) (constant (F := Ideal) S_ .f32 0x00000000#32)

/-- Into row `dst`: the sum over the positions of `dis(src) · dis(dst)` times row `src` of `xw`. -/
def aggregateOf (xw : Features) (src dst : Ends) (dis : PerNode) : Features :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 dst) (mulf (broadcastInDim S850000x64 ![0, 1] bcast_S850000x1_S850000x64_0_1 (broadcastInDim S850000x1 ![0] bcast_S850000_S850000x1_0 (mulf (Host.gather gather_S50000_S850000x1_S850000_n_0_n_n_0_1_1 dis (broadcastInDim S850000x1 ![0] bcast_S850000_S850000x1_0 (wrapped src))) (Host.gather gather_S50000_S850000x1_S850000_n_0_n_n_0_1_1 dis (broadcastInDim S850000x1 ![0] bcast_S850000_S850000x1_0 (wrapped dst)))))) (Host.gather gather_S50000x64_S850000x1_S850000x64_1_0_n_n_0_1_164 xw (broadcastInDim S850000x1 ![0] bcast_S850000_S850000x1_0 (wrapped src))))

/-- Into row `target`: the sum over the edges of the edge's weight times row `source` of `xw`. -/
def aggregate (xw : Features) (e : Edges) : Features :=
  aggregateOf xw (sources e) (targets e) (invSqrtDegree e)

/-- The bias row added to every row, then the positive part. -/
def biasRelu (a : Features) (b : Bias) : Features :=
  maximumf (addf a (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32))

/-- The layer: transform, aggregate, bias and positive part. -/
def layer (x : Features) (w : Weights) (e : Edges) (b : Bias) : Features :=
  biasRelu (aggregate (Host.dotGeneral (F := Ideal) (φ₁ := .f32) (φ₂ := .f32) dot_S50000x64_S64x64_S50000x64_1_0_0_1_n_n none x w) e) b

end Cert.Layer

end
-- ==== Proof.RefValue.lean ====
/-
  The reference program's result is the layer of its arguments.

  The reference's run ends with its result buffer at the composed term of its 66 host operations. That term is
  `layer` with its named intermediate values (the edge ends, the degree, the normalisation, the aggregate) written
  out at every use; the two are equal by unfolding the names.
-/
import proofs.«180685_j12317966205308_1_alg».proof.Proof.RefRun
import proofs.«180685_j12317966205308_1_alg».proof.Proof.Layer

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable (m : (ℓ : Loc nD τ sig) → Buf (Elt Ideal) ℓ)

/-- The result's term is the layer of the four argument arrays. -/
theorem result_eq (c : Dev nD) :
    res_main_v49 (F := Ideal) m c
      = Cert.Layer.layer (m ((c.tc : Thread nD τ).loc main_arg0)) (m ((c.tc : Thread nD τ).loc main_arg2))
          (m ((c.tc : Thread nD τ).loc main_arg1)) (m ((c.tc : Thread nD τ).loc main_arg3)) := by
  unfold res_main_v49
  rfl

end Cert.ReferenceIdeal.RefValue

end
-- ==== Proof.KernelRun.lean ====
/-
  The idealized kernel's run with its result named.

  The program is two kernel regions with host operations between them: the first region writes the product array,
  the host operations build the aggregate from it and the edge list, the second region writes the result array.
  Every weakly fair execution terminates without a fault; at the end the result buffer holds what the second
  region's write-backs leave (the fold of its flushed blocks over the array as the region found it, `arrAt` at the
  last point), and the four argument arrays are as launched. The generated frame proves the same run but keeps only
  the arguments in its post; here the last thread state (every unscoped buffer at the contents after the second
  region) is read at the result buffer as well.
-/
import proofs.«180685_j12317966205308_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the second region the result buffer holds the fold of that region's write-backs. -/
theorem result_after (c : Dev nD) :
    W5 m ρ c (Proc.devRef .tc main_v47) = (dat1 (V4 m ρ) c).arrAt 2 cfg1.N :=
  W5_arr m ρ c 2

-- the launch theorem's implicit arguments are found by unifying its conclusion with this statement, which takes
-- unfolding plain definitions in a metavariable's type
set_option backward.isDefEq.respectTransparency.types false in
/-- The run: termination, no fault, the result buffer at the second region's final array, the arguments unchanged. -/
theorem run_result : θ_run defs (onTc (τ := τ) (main (F := F))) ⟨m, fun _ => 0, ρ⟩ (fun r => ∀ c : Dev nD,
      r.2.mem ((c.tc : Thread nD τ).loc main_v47) = (dat1 (V4 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v47 (by decide))).trans (result_after m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.Product.lean ====
/-
  The first region's array: the product of the features with the weights, whole.

  Grid point `t` of the first region loads rows `2000·t … 2000·t + 1999` of the feature array and the whole weight
  matrix, multiplies them into a zero accumulator and writes the result back as the same rows of the output array.
  Rows of a product depend on the same rows of the left operand only, so what point `t` writes back is block `t`
  of the whole product `rowsByCols x w`; the 25 blocks tile the 50000 rows, so after the region the array is the
  whole product. The narrowing of the operands' format before the multiplication is the identity on the extended
  reals. Stated for any contents `V` the region is entered with.
-/
import proofs.«180685_j12317966205308_1_alg».proof.Proof.Gen.KernelIdeal.Frame
import proofs.«180685_j12317966205308_1_alg».proof.Proof.LibPlainProduct
import Idealize.ShloMosaic.Lib.Pipeline.Value
import Idealize.ShloMosaic.Lib.ValueIdx

set_option maxRecDepth 16384

noncomputable section

namespace Cert.KernelIdeal.Product

open Cert.KernelIdeal Cert.KernelIdeal.Gen Idealize.ShloMosaic Idealize.ShloMosaic.TcCoe Idealize.SL.Sem
open Idealize.ShloMosaic.ValueIdx Idealize.ShloMosaic.PlainProduct
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value: the loaded rows times the loaded weights. -/
theorem stored_product (x0 : Vec Ideal S2000x64 .f32) (x1 : Vec Ideal S64x64 .f32) :
    k0_pay1 x0 x1 = rowsByCols (φ₁ := .f32) (φ₂ := .f32) (M := 2000) (K := 64) (N := 64) x0 x1 := by
  unfold k0_pay1
  exact matmul_zero_plain none (truncf .bf16 x0 bitsLt_bf16_f32) (truncf .bf16 x1 bitsLt_bf16_f32)

/-- The whole product of the two arrays the region reads. -/
abbrev product (c : Dev nD) : S50000x64.Idx → Elt Ideal .f32 :=
  rowsByCols (φ₁ := .f32) (φ₂ := .f32) (M := 50000) (K := 64) (N := 64) (V c main_arg0) (V c main_arg2)

/-- The printed index maps over the grid: the feature and output windows move down one block of rows per point,
    the weight window stays. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The array row under row `r` of point `t`'s output block. -/
def rowOf (t : Fin cfg0.N) (r : Fin 2000) : Fin 50000 :=
  ((cfg0.win 2).blk t).view.emb (ix2 (n0 := 2000) (n1 := 64) r 0) 0

/-- Where an entry of point `t`'s output block sits in the array. -/
theorem out_entry (t : Fin cfg0.N) (j : S2000x64.Idx) :
    ((cfg0.win 2).blk t).view.emb j = ix2 (n0 := 50000) (n1 := 64) (rowOf t (j 0)) (j 1) := by
  obtain ⟨-, -, -, -, e4, -⟩ := index_maps t
  funext a; apply Fin.ext
  match a with
  | ⟨0, _⟩ => rfl
  | ⟨1, _⟩ =>
    show win0_2.index t (1 : Fin 2) * 64 + 1 * (j 1).val = (j 1).val
    omega

/-- Row `r` of point `t`'s feature block is row `rowOf t r` of the feature array. -/
theorem feature_block (c : Dev nD) (t : Fin cfg0.N) (r : Fin 2000) (k : Fin 64) :
    iblk0 V c 0 t (ix2 (n0 := 2000) (n1 := 64) r k) = V c main_arg0 (ix2 (n0 := 50000) (n1 := 64) (rowOf t r) k) := by
  obtain ⟨e0, e1, -, -, -, -⟩ := index_maps t
  show V c main_arg0 (((cfg0.win 0).blk t).view.emb (ix2 (n0 := 2000) (n1 := 64) r k)) = _
  refine congrArg (V c main_arg0) ?_
  funext a; apply Fin.ext
  match a with
  | ⟨0, _⟩ =>
    show win0_0.index t (0 : Fin 2) * 2000 + 1 * r.val = win0_2.index t (0 : Fin 2) * 2000 + 1 * r.val
    omega
  | ⟨1, _⟩ =>
    show win0_0.index t (1 : Fin 2) * 64 + 1 * k.val = k.val
    omega

/-- Point `t`'s weight block is the whole weight matrix. -/
theorem weight_block (c : Dev nD) (t : Fin cfg0.N) (y : S64x64.Idx) :
    iblk0 V c 1 t y = V c main_arg2 y := by
  obtain ⟨-, -, e2, e3, -, -⟩ := index_maps t
  show V c main_arg2 (((cfg0.win 1).blk t).view.emb y) = _
  refine congrArg (V c main_arg2) ?_
  funext a; apply Fin.ext
  match a with
  | ⟨0, _⟩ =>
    show win0_1.index t (0 : Fin 2) * 64 + 1 * (y 0).val = (y 0).val
    omega
  | ⟨1, _⟩ =>
    show win0_1.index t (1 : Fin 2) * 64 + 1 * (y 1).val = (y 1).val
    omega

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S2000x64) zero_offsets, View.ld_unit_zero (S := S64x64) zero_offsets]
  rw [stored_product]
  funext j
  show rowsByCols (φ₁ := .f32) (φ₂ := .f32) (M := 2000) (K := 64) (N := 64) (iblk0 V c 0 t) (iblk0 V c 1 t) j = product V c (((cfg0.win 2).blk t).view.emb j)
  rw [out_entry t j, show iblk0 V c 1 t = V c main_arg2 from funext (weight_block V c t)]
  exact rowsByCols_rows (V c main_arg0) (V c main_arg2) (iblk0 V c 0 t) (rowOf t) (feature_block V c t) j

/-- An index of the array is in point `t`'s block iff each coordinate is in the block's range on its axis. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every row of the array is in the block of the point numbered by the row's quotient by 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, e4, e5⟩ := index_maps t
  have e5' : win0_2.index t (0 : Fin 2) = (i 0).val / 2000 := e5
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region its output array is the whole product. -/
theorem final (c : Dev nD) : (dat0 V c).arrAt 2 cfg0.N = product V c :=
  (dat0 V c).arrAt_eq_of_cover 2 (product V c) (fun t _ => flushed_eq V c t) cover

end Cert.KernelIdeal.Product

end
-- ==== Proof.BiasRelu.lean ====
/-
  The second region's array: the bias row added to every row of the aggregate, then the positive part.

  Grid point `t` of the second region loads rows `2000·t … 2000·t + 1999` of the aggregate and the one-row bias
  array, adds the bias row to each loaded row, takes the entrywise maximum with zero, and writes the result back
  as the same rows of the output array. Entry `(r, q)` of what it writes depends on entry `(r, q)` of the aggregate
  and entry `(0, q)` of the bias only, so point `t`'s block is block `t` of one whole-array function; the 25 blocks
  tile the 50000 rows. Stated for any contents `V` the region is entered with.
-/
import proofs.«180685_j12317966205308_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `r`, column `q`: the loaded entry plus the bias of the column, or zero if that
    is negative. -/
theorem stored_entry (x0 : Vec Ideal S2000x64 .f32) (x1 : Vec Ideal S1x64 .f32) (r : Fin 2000) (q : Fin 64) :
    k1_pay1 x0 x1 (ix2 (n0 := 2000) (n1 := 64) r q)
      = max (x0 (ix2 (n0 := 2000) (n1 := 64) r q) + x1 (ix2 (n0 := 1) (n1 := 64) 0 q)) (Ideal.ofBits .f32 0x00000000#32) := by
  show maximumf (addf (shapeCast S2000x64 x0 shapeCasts_S2000x64_S2000x64)
      (broadcastTo S2000x64 (shapeCast S1x64 x1 shapeCasts_S1x64_S1x64) broadcasts_S1x64_S2000x64))
      (broadcast S2000x64 (Scalar.ofBits (F := Ideal) .f32 0x00000000#32)) (ix2 (n0 := 2000) (n1 := 64) r q) = _
  rw [shapeCast_self, shapeCast_self, maximumf_apply, addf_apply, broadcastTo_1b_ab_apply, broadcast_apply]
  rfl

/-- The whole-array function of an array `a` and a one-row array `b`: entry `(p, q)` of `a` plus entry `(0, q)` of `b`,
    or zero if that is negative. -/
def rectifiedOf (a : FVec Ideal S50000x64 .f32) (b : FVec Ideal S1x64 .f32) : FVec Ideal S50000x64 .f32 :=
  fun i => max (a i + b (ix2 (n0 := 1) (n1 := 64) 0 (i 1))) (Ideal.ofBits .f32 0x00000000#32)

/-- … of the two arrays the region reads. -/
def rectified (c : Dev nD) : FVec Ideal S50000x64 .f32 := rectifiedOf (V c main_v45) (V c main_v46)

/-- The printed index maps over the grid: the aggregate and output windows move down one block of rows per point,
    the bias window stays. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- Entry `(r, q)` of point `t`'s aggregate block is the aggregate's entry under entry `(r, q)` of its output block. -/
theorem aggregate_block (c : Dev nD) (t : Fin cfg1.N) (r : Fin 2000) (q : Fin 64) :
    iblk1 V c 0 t (ix2 (n0 := 2000) (n1 := 64) r q)
      = V c main_v45 (((cfg1.win 2).blk t).view.emb (ix2 (n0 := 2000) (n1 := 64) r q)) := by
  obtain ⟨e0, e1, -, -, e4, -⟩ := index_maps t
  show V c main_v45 (((cfg1.win 0).blk t).view.emb (ix2 (n0 := 2000) (n1 := 64) r q)) = _
  refine congrArg (V c main_v45) ?_
  funext a; apply Fin.ext
  match a with
  | ⟨0, _⟩ =>
    show win1_0.index t (0 : Fin 2) * 2000 + 1 * r.val = win1_2.index t (0 : Fin 2) * 2000 + 1 * r.val
    omega
  | ⟨1, _⟩ =>
    show win1_0.index t (1 : Fin 2) * 64 + 1 * q.val = win1_2.index t (1 : Fin 2) * 64 + 1 * q.val
    omega

/-- Point `t`'s bias block is the whole one-row bias array. -/
theorem bias_block (c : Dev nD) (t : Fin cfg1.N) (q : Fin 64) :
    iblk1 V c 1 t (ix2 (n0 := 1) (n1 := 64) 0 q) = V c main_v46 (ix2 (n0 := 1) (n1 := 64) 0 q) := by
  obtain ⟨-, -, e2, e3, -, -⟩ := index_maps t
  show V c main_v46 (((cfg1.win 1).blk t).view.emb (ix2 (n0 := 1) (n1 := 64) 0 q)) = _
  refine congrArg (V c main_v46) ?_
  funext a; apply Fin.ext
  match a with
  | ⟨0, _⟩ =>
    show win1_1.index t (0 : Fin 2) * 1 + 1 * 0 = 0
    omega
  | ⟨1, _⟩ =>
    show win1_1.index t (1 : Fin 2) * 64 + 1 * q.val = q.val
    omega

/-- The column of an entry of point `t`'s output block is its column in the array. -/
theorem out_column (t : Fin cfg1.N) (r : Fin 2000) (q : Fin 64) :
    ((cfg1.win 2).blk t).view.emb (ix2 (n0 := 2000) (n1 := 64) r q) 1 = q := by
  obtain ⟨-, -, -, -, e4, -⟩ := index_maps t
  apply Fin.ext
  show win1_2.index t (1 : Fin 2) * 64 + 1 * q.val = q.val
  omega

/-- What point `t` writes back is block `t` of the whole-array function. -/
theorem flushed_eq (c : Dev nD) (t : Fin cfg1.N) :
    (dat1 V c).flushed 2 t = ((cfg1.win 2).blk t).view.read (Elt Ideal) (rectified V c) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S1x64) zero_offsets]
  funext j
  obtain ⟨r, q, rfl⟩ : ∃ (r : Fin 2000) (q : Fin 64), j = ix2 (n0 := 2000) (n1 := 64) r q := ⟨j 0, j 1, eq_ix2 j⟩
  show k1_pay1 (iblk1 V c 0 t) (iblk1 V c 1 t) (ix2 (n0 := 2000) (n1 := 64) r q)
      = rectified V c (((cfg1.win 2).blk t).view.emb (ix2 (n0 := 2000) (n1 := 64) r q))
  refine (stored_entry (iblk1 V c 0 t) (iblk1 V c 1 t) r q).trans ?_
  rw [aggregate_block V c t r q, bias_block V c t q]
  unfold rectified rectifiedOf
  rw [out_column t r q]

/-- An index of the array is in point `t`'s block iff each coordinate is in the block's range on its axis. -/
theorem mem_block (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- Every row of the array is in the block of the point numbered by the row's quotient by 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, e4, e5⟩ := index_maps t
  have e5' : win1_2.index t (0 : Fin 2) = (i 0).val / 2000 := e5
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the region its output array is the whole-array function of the arrays it was entered with. -/
theorem final (c : Dev nD) : (dat1 V c).arrAt 2 cfg1.N = rectified V c :=
  (dat1 V c).arrAt_eq_of_cover 2 (rectified V c) (fun t _ => flushed_eq V c t) cover

end Cert.KernelIdeal.BiasRelu

end
-- ==== Proof.Between.lean ====
/-
  The host operations between the two regions.

  After the first region has written the product array, 60 host operations build, from that array and the edge
  list, the aggregate the second region reads, and recast the bias vector as a one-row array. They come in three
  stretches: 21 operations (the edge ends with the self loops, the degree, its mask and its inverse square root),
  the 3 operations of the masked choice, 36 operations (the gathers, the products, the scatter-add, the bias cast).
  Each stretch is read here from ANY contents `W` it starts from, at each buffer a later stretch or the second
  region reads; chained from the contents the first region leaves, the second region's two input arrays are the
  aggregate of the product array and the launched edge list, and the launched bias as one row.
-/
import proofs.«180685_j12317966205308_1_alg».proof.Proof.Gen.KernelIdeal.Frame
import proofs.«180685_j12317966205308_1_alg».proof.Proof.Gen.ReferenceIdeal
import proofs.«180685_j12317966205308_1_alg».proof.Proof.Layer
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

/-- What an operation's result buffer, or any other buffer, holds after the operation: rewritten also where the
    buffer is read inside a list of concatenated pieces. -/
macro "results_in_pieces" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

/-! ## The first stretch, from any contents -/

section First

variable (W : Valuation τ sig (Elt Ideal))

theorem first_sources : StableHlo.after hostOps1 W (Proc.devRef .tc main_v4) = Cert.Layer.sources (W (Proc.devRef .tc main_arg1)) := by
  simp only [hostOps1]; after_results_simp; results_in_pieces; rfl

theorem first_targets : StableHlo.after hostOps1 W (Proc.devRef .tc main_v7) = Cert.Layer.targets (W (Proc.devRef .tc main_arg1)) := by
  simp only [hostOps1]; after_results_simp; results_in_pieces; rfl

theorem first_mask : StableHlo.after hostOps1 W (Proc.devRef .tc main_v13)
    = Cert.Layer.positiveMask (Cert.Layer.degree (W (Proc.devRef .tc main_arg1))) := by
  simp only [hostOps1]; after_results_simp; results_in_pieces; rfl

theorem first_invSqrt : StableHlo.after hostOps1 W (Proc.devRef .tc main_v16)
    = Cert.Layer.invSqrtAtLeastOne (Cert.Layer.degree (W (Proc.devRef .tc main_arg1))) := by
  simp only [hostOps1]; after_results_simp; results_in_pieces; rfl

theorem first_zero : StableHlo.after hostOps1 W (Proc.devRef .tc main_cst_3) = constant (F := Ideal) S_ .f32 0x00000000#32 := by
  simp only [hostOps1]; after_results_simp

theorem first_product : StableHlo.after hostOps1 W (Proc.devRef .tc main_v0) = W (Proc.devRef .tc main_v0) := by
  simp only [hostOps1]; after_results_simp

theorem first_bias : StableHlo.after hostOps1 W (Proc.devRef .tc main_arg3) = W (Proc.devRef .tc main_arg3) := by
  simp only [hostOps1]; after_results_simp

end First

/-! ## The masked choice, from any contents -/

section Second

variable (W : Valuation τ sig (Elt Ideal))

theorem second_choice : StableHlo.after hostOps1_1 W (Proc.devRef .tc main_v17)
    = Cert.Layer.maskedOr (W (Proc.devRef .tc main_v13)) (W (Proc.devRef .tc main_v16)) (W (Proc.devRef .tc main_cst_3)) := by
  simp only [hostOps1_1]; after_results_simp; rfl

theorem second_sources : StableHlo.after hostOps1_1 W (Proc.devRef .tc main_v4) = W (Proc.devRef .tc main_v4) := by
  simp only [hostOps1_1]; after_results_simp

theorem second_targets : StableHlo.after hostOps1_1 W (Proc.devRef .tc main_v7) = W (Proc.devRef .tc main_v7) := by
  simp only [hostOps1_1]; after_results_simp

theorem second_product : StableHlo.after hostOps1_1 W (Proc.devRef .tc main_v0) = W (Proc.devRef .tc main_v0) := by
  simp only [hostOps1_1]; after_results_simp

theorem second_bias : StableHlo.after hostOps1_1 W (Proc.devRef .tc main_arg3) = W (Proc.devRef .tc main_arg3) := by
  simp only [hostOps1_1]; after_results_simp

end Second

/-! ## The third stretch, from any contents -/

section Third

variable (W : Valuation τ sig (Elt Ideal))

set_option maxHeartbeats 4000000 in
theorem third_aggregate : StableHlo.after hostOps1_2 W (Proc.devRef .tc main_v45)
    = Cert.Layer.aggregateOf (W (Proc.devRef .tc main_v0)) (W (Proc.devRef .tc main_v4)) (W (Proc.devRef .tc main_v7))
        (W (Proc.devRef .tc main_v17)) := by
  simp only [hostOps1_2]; after_results_simp; rfl

set_option maxHeartbeats 4000000 in
theorem third_bias : StableHlo.after hostOps1_2 W (Proc.devRef .tc main_v46)
    = shapeCast S1x64 (W (Proc.devRef .tc main_arg3)) shapeCasts_S64_S1x64 := by
  simp only [hostOps1_2]; after_results_simp; rfl

end Third

/-! ## Chained from what the first region leaves -/

variable (m : (ℓ : Loc nD τ sig) → Buf (Elt Ideal) ℓ) (ρ : Dev nD → PrngReg)

/-- The first region leaves the edge list as launched. -/
theorem edges_kept (c : Dev nD) :
    W1 m ρ c (Proc.devRef .tc main_arg1) = m ((c : Thread nD τ).loc main_arg1) :=
  W1_of_ne m ρ c main_arg1 (by decide)

/-- … and the bias vector. -/
theorem bias_kept (c : Dev nD) :
    W1 m ρ c (Proc.devRef .tc main_arg3) = m ((c : Thread nD τ).loc main_arg3) :=
  W1_of_ne m ρ c main_arg3 (by decide)

/-- The second region's first input array: the aggregate of the product array and the launched edge list. -/
theorem aggregate_eq (c : Dev nD) :
    V4 m ρ c main_v45
      = Cert.Layer.aggregate (V1 m ρ c main_v0) (m ((c : Thread nD τ).loc main_arg1)) := by
  show StableHlo.after hostOps1_2 (StableHlo.after hostOps1_1 (StableHlo.after hostOps1 (W1 m ρ c))) (Proc.devRef .tc main_v45) = _
  rw [third_aggregate, second_product, second_sources, second_targets, second_choice,
    first_product, first_sources, first_targets, first_mask, first_invSqrt, first_zero, edges_kept]
  rfl

/-- The second region's second input array: the launched bias vector as one row. -/
theorem bias_eq (c : Dev nD) :
    V4 m ρ c main_v46 = shapeCast S1x64 (m ((c : Thread nD τ).loc main_arg3)) shapeCasts_S64_S1x64 := by
  show StableHlo.after hostOps1_2 (StableHlo.after hostOps1_1 (StableHlo.after hostOps1 (W1 m ρ c))) (Proc.devRef .tc main_v46) = _
  rw [third_bias, second_bias, first_bias, bias_kept]

end Cert.KernelIdeal.Between

end
-- ==== Proof.Bridge.lean ====
/-
  The idealized kernel's result array is the layer of its arguments.

  Put together: the first region leaves the whole product of the features with the weights (rows by columns), which
  is what the reference's general dot product computes too — one finite sum per entry over the contracted axis, on
  the extended reals, in either program. The host operations between the regions turn it and the edge list into the
  aggregate, spelt as in the reference. The second region adds, to entry `(p, q)` of the aggregate, entry `(0, q)`
  of the bias recast as one row — entry `q` of the bias vector, which is what the reference's two broadcasts of the
  bias read at `(p, q)` — and takes the maximum with zero. No step rearranges a sum or a product, so no entry needs
  to be finite.
-/
import proofs.«180685_j12317966205308_1_alg».proof.Proof.KernelRun
import proofs.«180685_j12317966205308_1_alg».proof.Proof.Product
import proofs.«180685_j12317966205308_1_alg».proof.Proof.BiasRelu
import proofs.«180685_j12317966205308_1_alg».proof.Proof.Between
import proofs.«180685_j12317966205308_1_alg».proof.Proof.Layer
import proofs.«180685_j12317966205308_1_alg».proof.Proof.LibPlainProduct
import Idealize.ShloMosaic.Lib.KernelVsHost
import Idealize.ShloMosaic.Lib.IdealHost
import Idealize.ShloMosaic.Lib.ValueLayout
import Idealize.ShloMosaic.Lib.ValueIdx

set_option maxRecDepth 16384

noncomputable section

namespace Cert.Bridge

open Idealize.ShloMosaic Idealize.ShloMosaic.TcCoe Idealize.SL.Sem
open Idealize.ShloMosaic.ValueIdx Idealize.ShloMosaic.PlainProduct

/-- The reference's general dot product of the features with the weights is the product rows by columns. -/
theorem transform_eq (x : Cert.Layer.Features) (w : Cert.Layer.Weights) :
    Host.dotGeneral (F := Ideal) (φ₁ := .f32) (φ₂ := .f32) Cert.ReferenceIdeal.dot_S50000x64_S64x64_S50000x64_1_0_0_1_n_n none x w
      = rowsByCols (φ₁ := .f32) (φ₂ := .f32) (M := 50000) (K := 64) (N := 64) x w :=
  dotGeneral_plain none .single x w

/-- The bias step at entry `(p, q)`: the entry plus the bias of column `q`, or zero if that is negative. -/
theorem biasRelu_apply (a : Cert.Layer.Features) (b : Cert.Layer.Bias) (p : Fin 50000) (q : Fin 64) :
    Cert.Layer.biasRelu a b (ix2 (n0 := 50000) (n1 := 64) p q)
      = max ((a : FVec Ideal ⟨2, ![50000, 64]⟩ .f32) (ix2 (n0 := 50000) (n1 := 64) p q) + (b : FVec Ideal ⟨1, ![64]⟩ .f32) (ix1 (n := 64) q))
          (Ideal.ofBits .f32 0x00000000#32) := by
  unfold Cert.Layer.biasRelu
  rw [maximumf_apply, addf_apply, broadcastInDim_oneRow_apply, broadcastInDim_scalar_apply, constant_apply,
    broadcastInDim_apply ![1] _ b (ix2 (n0 := 1) (n1 := 64) 0 q) (ix1 (n := 64) q) (fun a => by
      match a with
      | ⟨0, _⟩ => rfl)]

section Kernel

open Cert.KernelIdeal Cert.KernelIdeal.Gen

variable (m : (ℓ : Loc nD τ sig) → Buf (Elt Ideal) ℓ) (ρ : Dev nD → PrngReg)

/-- What the host operations find in the first region's output buffer: the product of the launched features and
    weights. -/
theorem product_left (c : Dev nD) :
    V1 m ρ c main_v0
      = rowsByCols (φ₁ := .f32) (φ₂ := .f32) (M := 50000) (K := 64) (N := 64)
          (m ((c.tc : Thread nD τ).loc main_arg0)) (m ((c.tc : Thread nD τ).loc main_arg2)) :=
  (hF0 m ρ c 2).symm.trans (Cert.KernelIdeal.Product.final (V0 m ρ) c)

/-- The second region's final array is the layer of the launched arguments. -/
theorem kernel_result (c : Dev nD) :
    (dat1 (V4 m ρ) c).arrAt 2 cfg1.N
      = Cert.Layer.layer (m ((c.tc : Thread nD τ).loc main_arg0)) (m ((c.tc : Thread nD τ).loc main_arg2))
          (m ((c.tc : Thread nD τ).loc main_arg1)) (m ((c.tc : Thread nD τ).loc main_arg3)) := by
  rw [Cert.KernelIdeal.BiasRelu.final (V4 m ρ) c]
  funext i
  obtain ⟨p, q, rfl⟩ : ∃ (p : Fin 50000) (q : Fin 64), i = ix2 (n0 := 50000) (n1 := 64) p q := ⟨i 0, i 1, eq_ix2 i⟩
  unfold Cert.Layer.layer
  rw [biasRelu_apply, transform_eq]
  unfold Cert.KernelIdeal.BiasRelu.rectified Cert.KernelIdeal.BiasRelu.rectifiedOf
  rw [Cert.KernelIdeal.Between.aggregate_eq m ρ c, Cert.KernelIdeal.Between.bias_eq m ρ c, product_left m ρ c]
  show max (_ + shapeCast S1x64 (m ((c.tc : Thread nD τ).loc main_arg3)) shapeCasts_S64_S1x64 (ix2 (n0 := 1) (n1 := 64) 0 q)) _ = _
  rw [shapeCast_a_1a_apply]

end Kernel

end Cert.Bridge

end
-- ==== Proof.lean ====
/-
  The certificate of one graph-convolution layer: the kernel computes what the reference computes.

  Kernel: `x · W` by a tiled kernel (25 blocks of 2000 rows; the operands narrowed to a 16-bit format on the way into
  the matrix unit), then on the host the self loops, the degrees, the symmetric normalisation, the gather of the
  transformed rows and their scatter-add into the aggregate, then a second tiled kernel adding the bias row and
  taking the positive part. Reference: the same steps with `x · W` one host dot product and the bias and positive
  part host operations.

  On the extended reals the narrowing is the identity and both products are, entry by entry, the one finite sum
  over the contracted axis; a product taken one block of rows at a time is the whole product; the host steps
  between are the same operations of the same operands in both programs; and the bias row added to a block of rows
  is the bias row added to the whole array. So both results are `layer x W e b` (Proof/Layer.lean), with no
  appeal to finiteness and none to the edge list's node numbers being in range.

  The three frames: the two kernel programs' are generated whole; the reference's is its run with the result
  dropped. The idealization rewrote nothing, so `preserves` is `True`.
-/
import proofs.«180685_j12317966205308_1_alg».proof.Defs
import proofs.«180685_j12317966205308_1_alg».proof.Proof.Gen.Kernel
import proofs.«180685_j12317966205308_1_alg».proof.Proof.Gen.Kernel.Skeleton
import proofs.«180685_j12317966205308_1_alg».proof.Proof.Gen.Kernel.Launch
import proofs.«180685_j12317966205308_1_alg».proof.Proof.Gen.Kernel.Points
import proofs.«180685_j12317966205308_1_alg».proof.Proof.Gen.Kernel.Frame
import proofs.«180685_j12317966205308_1_alg».proof.Proof.Gen.KernelIdeal
import proofs.«180685_j12317966205308_1_alg».proof.Proof.Gen.KernelIdeal.Skeleton
import proofs.«180685_j12317966205308_1_alg».proof.Proof.Gen.KernelIdeal.Launch
import proofs.«180685_j12317966205308_1_alg».proof.Proof.Gen.KernelIdeal.Points
import proofs.«180685_j12317966205308_1_alg».proof.Proof.Gen.KernelIdeal.Frame
import proofs.«180685_j12317966205308_1_alg».proof.Proof.Gen.ReferenceIdeal
import proofs.«180685_j12317966205308_1_alg».proof.Proof.Gen.Pre_finite_inputs
import proofs.«180685_j12317966205308_1_alg».proof.Proof.RefRun
import proofs.«180685_j12317966205308_1_alg».proof.Proof.RefValue
import proofs.«180685_j12317966205308_1_alg».proof.Proof.KernelRun
import proofs.«180685_j12317966205308_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the four arguments both programs end with their result at the layer of those
    arguments. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Bridge.kernel_result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
